-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 87
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .bf16⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .bf16⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .bf16⟩
  | .hbm, ⟨64, _⟩ => ⟨S1600000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .bf16⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S1600000, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1600000, .f32⟩
  | .hbm, ⟨83, _⟩ => ⟨S1600000, .f32⟩
  | .hbm, ⟨84, _⟩ => ⟨S_, .f32⟩
  | .hbm, ⟨85, _⟩ => ⟨S1600000, .f32⟩
  | .hbm, ⟨86, _⟩ => ⟨S1600000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .bf16⟩
  | .local _ .vmem, ⟨21, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  reducesTo_S1600000x128_S1600000_d1 : S1600000x128.ReducesTo [1] S1600000
  h_S_ : 0 < S_.numel
  reducesTo_S1600000_S_d0 : S1600000.ReducesTo [0] S_
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S1600000x128, .f32⟩
  | .hbm, ⟨90, _⟩ => ⟨S_, .f32⟩
  | .hbm, ⟨91, _⟩ => ⟨S1600000, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S1600000, .f32⟩
  | .hbm, ⟨97, _⟩ => ⟨S1600000, .f32⟩
  | .hbm, ⟨98, _⟩ => ⟨S_, .f32⟩
  | .hbm, ⟨99, _⟩ => ⟨S1600000, .f32⟩
  | .hbm, ⟨100, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S1600000x128_S1600000_d1 : S1600000x128.ReducesTo [1] S1600000
  h_S_ : 0 < S_.numel
  reducesTo_S1600000_S_d0 : S1600000.ReducesTo [0] S_
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result kept.

  The program is two pipelined regions among three stretches of host operations. Every weakly fair execution
  terminates without a fault, and at the end every unscoped buffer of a core holds the last boundary's contents: the
  fold of the three host stretches and the two regions' write-backs from the launch memory. Read at the result buffer
  this gives the result as that fold's value there; read at an argument it gives the launch contents, since nothing
  writes an argument.
-/
import proofs.«173152_j24575802867956_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Whole

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«173152_j24575802867956_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibSageCombine.lean ====
/-
  The combine step of a mean-aggregating graph layer, entry by entry, on the extended reals.

  For node features `h` (N×K), summed neighbour messages `msg` (N×K), a column `inv` (N×1) of reciprocal degrees,
  two weight matrices `ws`, `wn` (K×M) and a bias row `b` (1×M), the entry (r, j) of the combined array is
      Σ_k h(r,k)·ws(k,j)  +  Σ_k (msg(r,k)·inv(r,0))·wn(k,j)  +  b(0,j).
  The same array is what the host expression
      h·ws + (msg / bcast(max(deg, 1)))·wn + bcast(b)
  denotes when `inv(r,0) = 1 / max(deg r, 1)`: the divisor `max(deg r, 1)` is at least one, hence not zero, and for a
  divisor d ≠ 0 the quotient x / d is x·d⁻¹ = x·(1·d⁻¹) = x·(1 / d) on every extended real x — no finiteness of x
  or of d is used.
-/
import Idealize.ShloMosaic.PureOps.Ideal.Laws
import Idealize.ShloMosaic.Lib.ValueIdx
import Idealize.ShloMosaic.Lib.ValueLayout
import Idealize.ShloMosaic.Lib.Pipeline.Value
import proofs.«173152_j24575802867956_2_alg».proof.Proof.LibDotGeneralNN

noncomputable section

open scoped BigOperators

namespace Cert.Sage

open Idealize.ShloMosaic Idealize.ShloMosaic.ValueIdx

variable {N K M : Nat}

/-- The entry (r, j) of the combine step. -/
def combine (h msg : (⟨2, ![N, K]⟩ : Shape).Idx → EReal) (inv : (⟨2, ![N, 1]⟩ : Shape).Idx → EReal)
    (ws wn : (⟨2, ![K, M]⟩ : Shape).Idx → EReal) (b : (⟨2, ![1, M]⟩ : Shape).Idx → EReal) (r : Fin N) (j : Fin M) : EReal :=
  (∑ k : Fin K, h (ix2 r k) * ws (ix2 k j)) + (∑ k : Fin K, (msg (ix2 r k) * inv (ix2 r (0 : Fin 1))) * wn (ix2 k j))
    + b (ix2 (0 : Fin 1) j)

/-- The combined array: `combine` at the two coordinates of the index. -/
def combineArr (h msg : (⟨2, ![N, K]⟩ : Shape).Idx → EReal) (inv : (⟨2, ![N, 1]⟩ : Shape).Idx → EReal)
    (ws wn : (⟨2, ![K, M]⟩ : Shape).Idx → EReal) (b : (⟨2, ![1, M]⟩ : Shape).Idx → EReal) :
    (⟨2, ![N, M]⟩ : Shape).Idx → EReal :=
  fun i => combine h msg inv ws wn b (i 0) (i 1)

theorem combineArr_apply (h msg : (⟨2, ![N, K]⟩ : Shape).Idx → EReal) (inv : (⟨2, ![N, 1]⟩ : Shape).Idx → EReal)
    (ws wn : (⟨2, ![K, M]⟩ : Shape).Idx → EReal) (b : (⟨2, ![1, M]⟩ : Shape).Idx → EReal) (r : Fin N) (j : Fin M) :
    combineArr h msg inv ws wn b (ix2 r j) = combine h msg inv ws wn b r j := rfl

/-- The pattern of 1.0 denotes the extended real one. -/
theorem ofBits_one : Ideal.ofBits .f32 0x3F800000#32 = 1 := by
  simp [Ideal.ofBits, Ideal.ieee, -EReal.coe_mul]; norm_num

/-- Dividing by a nonzero d is multiplying by the quotient 1 / d, on every extended real. -/
theorem mul_one_div (x d : EReal) (hd : d ≠ 0) : x * Ideal.div 1 d = Ideal.div x d := by
  rw [Ideal.div, Ideal.div, if_neg hd, if_neg hd, one_mul]

/-- A maximum with one is not zero. -/
theorem max_one_ne_zero (x : EReal) : max x 1 ≠ 0 :=
  ne_of_gt (lt_of_lt_of_le zero_lt_one (le_max_right x 1))

section Layouts

variable {α : Type}

/-- A vector [N] laid out as a column [N,1] and repeated along K columns reads, at (r, k), the vector's entry r. -/
theorem colBroadcast_apply (hb0 : (⟨1, ![N]⟩ : Shape).BroadcastsInDim ⟨2, ![N, 1]⟩ ![0])
    (hb1 : (⟨2, ![N, 1]⟩ : Shape).BroadcastsInDim ⟨2, ![N, K]⟩ ![0, 1]) (v : (⟨1, ![N]⟩ : Shape).Idx → α) (r : Fin N) (k : Fin K) :
    broadcastInDim ⟨2, ![N, K]⟩ ![0, 1] hb1 (broadcastInDim ⟨2, ![N, 1]⟩ ![0] hb0 v) (ix2 r k) = v (ix1 r) := by
  refine (broadcastInDim_apply _ hb1 _ (ix2 r k) (ix2 r (0 : Fin 1)) fun a => ?_).trans
    (broadcastInDim_apply _ hb0 v (ix2 r (0 : Fin 1)) (ix1 r) fun a => ?_)
  · match a with
    | ⟨0, _⟩ =>
      show r.val = if N = 1 then 0 else r.val
      split
      · have := r.isLt; omega
      · rfl
    | ⟨1, _⟩ => show 0 = if (1 : Nat) = 1 then 0 else k.val; rw [if_pos rfl]
  · match a with
    | ⟨0, _⟩ =>
      show r.val = if N = 1 then 0 else r.val
      split
      · have := r.isLt; omega
      · rfl

/-- A vector [M] laid out as a row [1,M] and repeated along N rows reads, at (r, j), the vector's entry j. -/
theorem rowBroadcast_apply (hb2 : (⟨1, ![M]⟩ : Shape).BroadcastsInDim ⟨2, ![1, M]⟩ ![1])
    (hb3 : (⟨2, ![1, M]⟩ : Shape).BroadcastsInDim ⟨2, ![N, M]⟩ ![0, 1]) (v : (⟨1, ![M]⟩ : Shape).Idx → α) (r : Fin N) (j : Fin M) :
    broadcastInDim ⟨2, ![N, M]⟩ ![0, 1] hb3 (broadcastInDim ⟨2, ![1, M]⟩ ![1] hb2 v) (ix2 r j) = v (ix1 j) := by
  refine (broadcastInDim_apply _ hb3 _ (ix2 r j) (ix2 (0 : Fin 1) j) fun a => ?_).trans
    (broadcastInDim_apply _ hb2 v (ix2 (0 : Fin 1) j) (ix1 j) fun a => ?_)
  · match a with
    | ⟨0, _⟩ => show 0 = if (1 : Nat) = 1 then 0 else r.val; rw [if_pos rfl]
    | ⟨1, _⟩ =>
      show j.val = if M = 1 then 0 else j.val
      split
      · have := j.isLt; omega
      · rfl
  · match a with
    | ⟨0, _⟩ =>
      show j.val = if M = 1 then 0 else j.val
      split
      · have := j.isLt; omega
      · rfl

/-- A vector [N] cast to a column [N,1] reads, at (r, 0), the vector's entry r. -/
theorem colCast_apply (hsc : (⟨1, ![N]⟩ : Shape).ShapeCasts ⟨2, ![N, 1]⟩) (v : (⟨1, ![N]⟩ : Shape).Idx → α) (r : Fin N) :
    shapeCast ⟨2, ![N, 1]⟩ v hsc (ix2 r (0 : Fin 1)) = v (ix1 r) :=
  shapeCast_apply v hsc _ _ (by
    rw [Shape.rowMajor_val_two, Shape.rowMajor_val_one]
    show r.val = r.val * 1 + 0
    rw [Nat.mul_one, Nat.add_zero])

end Layouts

/-- The host form of the combine step is the combined array: the two matrix products read as sums, the message
    quotient by `max(deg, 1)` as the product with its reciprocal column, and the bias read through its two layouts. -/
theorem hostLayer_eq (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (hb0 : (⟨1, ![N]⟩ : Shape).BroadcastsInDim ⟨2, ![N, 1]⟩ ![0])
    (hb1 : (⟨2, ![N, 1]⟩ : Shape).BroadcastsInDim ⟨2, ![N, K]⟩ ![0, 1])
    (hb2 : (⟨1, ![M]⟩ : Shape).BroadcastsInDim ⟨2, ![1, M]⟩ ![1])
    (hb3 : (⟨2, ![1, M]⟩ : Shape).BroadcastsInDim ⟨2, ![N, M]⟩ ![0, 1])
    (hsc1 : (⟨1, ![N]⟩ : Shape).ShapeCasts ⟨2, ![N, 1]⟩) (hsc2 : (⟨1, ![M]⟩ : Shape).ShapeCasts ⟨2, ![1, M]⟩)
    (h msg : FVec Ideal ⟨2, ![N, K]⟩ .f32) (deg ones : FVec Ideal ⟨1, ![N]⟩ .f32) (hones : ∀ r : Fin N, ones (ix1 r) = 1)
    (ws wn : FVec Ideal ⟨2, ![K, M]⟩ .f32) (b : FVec Ideal ⟨1, ![M]⟩ .f32) :
    addf (addf (Host.dotGeneral d none h ws)
        (Host.dotGeneral d none
          (Host.divf msg (broadcastInDim ⟨2, ![N, K]⟩ ![0, 1] hb1 (broadcastInDim ⟨2, ![N, 1]⟩ ![0] hb0 (maximumf deg ones)))) wn))
      (broadcastInDim ⟨2, ![N, M]⟩ ![0, 1] hb3 (broadcastInDim ⟨2, ![1, M]⟩ ![1] hb2 b))
    = combineArr h msg (shapeCast ⟨2, ![N, 1]⟩ (Host.divf ones (maximumf deg ones)) hsc1) ws wn (shapeCast ⟨2, ![1, M]⟩ b hsc2) := by
  funext i
  obtain ⟨r, j, rfl⟩ : ∃ (r : Fin N) (j : Fin M), i = ix2 r j := ⟨i 0, i 1, eq_ix2 i⟩
  rw [combineArr_apply]
  unfold combine
  simp only [Host.dotGeneral]
  refine congrArg₂ (· + ·) (congrArg₂ (· + ·) ?_ ?_) ?_
  · exact Cert.LibDotGeneralNN.dotGeneral_apply d hlc hrc hln hrn hlb hrb _ _ h ws r j
  · refine (Cert.LibDotGeneralNN.dotGeneral_apply d hlc hrc hln hrn hlb hrb _ _ _ wn r j).trans ?_
    refine Finset.sum_congr rfl fun k _ => congrArg (· * wn (ix2 k j)) ?_
    show Ideal.div (msg (ix2 r k)) (broadcastInDim ⟨2, ![N, K]⟩ ![0, 1] hb1 (broadcastInDim ⟨2, ![N, 1]⟩ ![0] hb0 (maximumf deg ones)) (ix2 r k))
      = msg (ix2 r k) * shapeCast ⟨2, ![N, 1]⟩ (Host.divf ones (maximumf deg ones)) hsc1 (ix2 r (0 : Fin 1))
    rw [colBroadcast_apply hb0 hb1, colCast_apply hsc1]
    show Ideal.div (msg (ix2 r k)) (max (deg (ix1 r)) (ones (ix1 r))) = msg (ix2 r k) * Ideal.div (ones (ix1 r)) (max (deg (ix1 r)) (ones (ix1 r)))
    rw [hones r]
    exact (mul_one_div _ _ (max_one_ne_zero _)).symm
  · exact (rowBroadcast_apply hb2 hb3 b r j).trans (shapeCast_a_1a_apply b hsc2 (0 : Fin 1) j).symm

end Cert.Sage

end
-- ==== Proof.KernelPayload.lean ====
/-
  The kernel body's stored value, entry by entry, at the ideal instance.

  Both launches run the same body on a block of A = 4000 rows: it scales the message block by the reciprocal-degree
  column, multiplies the feature block and the scaled message block by the two weight matrices (each product
  accumulated from zero), adds the two products and the bias row, and stores the sum. A change of float format is the
  identity on extended reals, and a shape cast to the same shape is the identity, so the stored value at (p, q) is
      Σ_k x0(p,k)·x3(k,q) + Σ_k (x1(p,k)·x2(p,0))·x4(k,q) + x5(0,q),
  the combine step's entry for the block. The second launch differs only in the stored format of its feature block.
-/
import proofs.«173152_j24575802867956_2_alg».proof.Proof.Gen.KernelIdeal.Skeleton
import proofs.«173152_j24575802867956_2_alg».proof.Proof.LibMatmulNN
import proofs.«173152_j24575802867956_2_alg».proof.Proof.LibSageCombine

noncomputable section

open scoped BigOperators

namespace Cert.KernelIdeal.Payload

open Cert.KernelIdeal Cert.KernelIdeal.Gen Idealize.ShloMosaic Idealize.ShloMosaic.ValueIdx

/-- A column [a,1] repeated along b columns reads, at (p, c), the column's entry of row p. -/
theorem colBroadcastTo_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value of the first launch's body at (p, q). -/
theorem pay0_apply (x0 x1 : Vec Ideal S4000x128 .f32) (x2 : Vec Ideal S4000x1 .f32) (x3 x4 : Vec Ideal S128x128 .f32)
    (x5 : Vec Ideal S1x128 .f32) (p : Fin 4000) (q : Fin 128) :
    k0_pay1 (F := Ideal) x0 x1 x2 x3 x4 x5 (ix2 p q) = Cert.Sage.combine x0 x1 x2 x3 x4 x5 p q := by
  have e : k0_pay1 (F := Ideal) x0 x1 x2 x3 x4 x5 (ix2 p q)
      = (matmul (φ₁ := .f32) (φ₂ := .f32) dot_S4000x128_S128x128_S4000x128_1_0_0_1_n_n none x0 x3 (constant (F := Ideal) S4000x128 .f32 0x00000000#32) (ix2 p q)
          + matmul (φ₁ := .f32) (φ₂ := .f32) dot_S4000x128_S128x128_S4000x128_1_0_0_1_n_n none (mulf (φ := .f32) x1 (broadcastTo S4000x128 (x2 : FVec Ideal S4000x1 .f32) broadcasts_S4000x1_S4000x128)) x4
              (constant (F := Ideal) S4000x128 .f32 0x00000000#32) (ix2 p q))
        + broadcastTo S4000x128 (x5 : FVec Ideal S1x128 .f32) broadcasts_S1x128_S4000x128 (ix2 p q) := by
    unfold k0_pay1
    simp only [shapeCast_self]
    rfl
  rw [e]
  unfold Cert.Sage.combine
  refine congrArg₂ (· + ·) (congrArg₂ (· + ·) ?_ ?_) ?_
  · exact Cert.LibMatmulNN.matmul_zero_apply' dot_S4000x128_S128x128_S4000x128_1_0_0_1_n_n rfl rfl rfl rfl rfl rfl none x0 x3 p q
  · refine (Cert.LibMatmulNN.matmul_zero_apply' dot_S4000x128_S128x128_S4000x128_1_0_0_1_n_n rfl rfl rfl rfl rfl rfl none _ x4 p q).trans ?_
    refine Finset.sum_congr rfl fun k _ => congrArg (· * x4 (ix2 k q)) ?_
    show x1 (ix2 p k) * broadcastTo S4000x128 x2 broadcasts_S4000x1_S4000x128 (ix2 p k) = x1 (ix2 p k) * x2 (ix2 p (0 : Fin 1))
    rw [colBroadcastTo_apply]
  · exact broadcastTo_1b_ab_apply x5 broadcasts_S1x128_S4000x128 p q

/-- The stored value of the second launch's body at (p, q): the same entry, its feature block stored in the narrow format. -/
theorem pay1_apply (x0 : Vec Ideal S4000x128 .bf16) (x1 : Vec Ideal S4000x128 .f32) (x2 : Vec Ideal S4000x1 .f32)
    (x3 x4 : Vec Ideal S128x128 .f32) (x5 : Vec Ideal S1x128 .f32) (p : Fin 4000) (q : Fin 128) :
    k1_pay1 (F := Ideal) x0 x1 x2 x3 x4 x5 (ix2 p q) = Cert.Sage.combine x0 x1 x2 x3 x4 x5 p q := by
  have e : k1_pay1 (F := Ideal) x0 x1 x2 x3 x4 x5 (ix2 p q)
      = (matmul (φ₁ := .bf16) (φ₂ := .f32) dot_S4000x128_S128x128_S4000x128_1_0_0_1_n_n none x0 x3 (constant (F := Ideal) S4000x128 .f32 0x00000000#32) (ix2 p q)
          + matmul (φ₁ := .f32) (φ₂ := .f32) dot_S4000x128_S128x128_S4000x128_1_0_0_1_n_n none (mulf (φ := .f32) x1 (broadcastTo S4000x128 (x2 : FVec Ideal S4000x1 .f32) broadcasts_S4000x1_S4000x128)) x4
              (constant (F := Ideal) S4000x128 .f32 0x00000000#32) (ix2 p q))
        + broadcastTo S4000x128 (x5 : FVec Ideal S1x128 .f32) broadcasts_S1x128_S4000x128 (ix2 p q) := by
    unfold k1_pay1
    simp only [shapeCast_self]
    rfl
  rw [e]
  unfold Cert.Sage.combine
  refine congrArg₂ (· + ·) (congrArg₂ (· + ·) ?_ ?_) ?_
  · exact Cert.LibMatmulNN.matmul_zero_apply' dot_S4000x128_S128x128_S4000x128_1_0_0_1_n_n rfl rfl rfl rfl rfl rfl none x0 x3 p q
  · refine (Cert.LibMatmulNN.matmul_zero_apply' dot_S4000x128_S128x128_S4000x128_1_0_0_1_n_n rfl rfl rfl rfl rfl rfl none _ x4 p q).trans ?_
    refine Finset.sum_congr rfl fun k _ => congrArg (· * x4 (ix2 k q)) ?_
    show x1 (ix2 p k) * broadcastTo S4000x128 x2 broadcasts_S4000x1_S4000x128 (ix2 p k) = x1 (ix2 p k) * x2 (ix2 p (0 : Fin 1))
    rw [colBroadcastTo_apply]
  · exact broadcastTo_1b_ab_apply x5 broadcasts_S1x128_S4000x128 p q

end Cert.KernelIdeal.Payload

end
-- ==== Proof.KernelBlocks.lean ====
/-
  From blocks to arrays: what each of the two pipelined regions leaves in its output array.

  A region runs the combine body at 25 grid points; point t reads rows 4000·t … 4000·t + 3999 of the feature, message
  and reciprocal-degree arrays, the whole of the two weight matrices and of the bias row, and writes back rows
  4000·t … 4000·t + 3999 of the output. The body's stored value at (p, q) of the block is the combine step's entry
  for the block's rows, which is the entry (4000·t + p, q) of the combine step of the whole arrays: a block's element
  (y0, y1) sits in the array at (block index × block extent + y0, …), and the index maps, decided once over the 25
  points, put the row blocks at t and the weight and bias blocks at 0. The 25 row blocks cover the array (row r is in
  block r / 4000), so after the region the output array is the combine step of the arrays the region was entered with.
-/
import proofs.«173152_j24575802867956_2_alg».proof.Proof.Gen.KernelIdeal.Frame
import proofs.«173152_j24575802867956_2_alg».proof.Proof.KernelPayload
import proofs.«173152_j24575802867956_2_alg».proof.Proof.LibSageCombine
import Idealize.ShloMosaic.Lib.Pipeline.Value

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The zero offset of every whole-buffer rectangle. -/
theorem hz : (![0, 0] : Fin 2 → Nat) = fun _ => 0 := funext fun a => by fin_cases a <;> rfl

/-- The printed index maps of the first region, decided over its 25 points. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The printed index maps of the second region, decided over its 25 points. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` of the first region writes back is block `t` of the combine step of the entry arrays. -/
theorem flushed0_eq (c : Dev nD) (t : Fin cfg0.N) :
    (dat0 (F := Ideal) V c).flushed 6 t = ((cfg0.win 6).blk t).view.read (Elt Ideal)
      (Cert.Sage.combineArr (V c main_arg0) (V c main_v20) (V c main_v8) (V c main_arg3) (V c main_arg4) (V c main_v21)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x128) hz, View.ld_unit_zero (S := S1x128) hz]
  obtain ⟨e00, e01, e10, e11, e20, e21, e30, e31, e40, e41, e50, e51, e60, e61⟩ := idx_facts0 t
  funext j
  obtain ⟨p, q, rfl⟩ : ∃ (p : Fin 4000) (q : Fin 128), j = ix2 p q :=
    ⟨⟨(j 0).val, (j 0).isLt⟩, ⟨(j 1).val, (j 1).isLt⟩, funext fun a => by match a with | ⟨0, _⟩ => rfl | ⟨1, _⟩ => rfl⟩
  show k0_pay1 (iblk0 V c 0 t) (iblk0 V c 1 t) (iblk0 V c 2 t) (iblk0 V c 3 t) (iblk0 V c 4 t) (iblk0 V c 5 t) (ix2 p q)
      = Cert.Sage.combine (V c main_arg0) (V c main_v20) (V c main_v8) (V c main_arg3) (V c main_arg4) (V c main_v21)
          ((((cfg0.win 6).blk t).view.emb (ix2 p q)) 0) ((((cfg0.win 6).blk t).view.emb (ix2 p q)) 1)
  refine (Payload.pay0_apply (iblk0 V c 0 t) (iblk0 V c 1 t) (iblk0 V c 2 t) (iblk0 V c 3 t) (iblk0 V c 4 t) (iblk0 V c 5 t) p q).trans ?_
  unfold Cert.Sage.combine
  refine congrArg₂ (· + ·) (congrArg₂ (· + ·) (Finset.sum_congr rfl fun k _ => congrArg₂ (· * ·) ?_ ?_)
    (Finset.sum_congr rfl fun k _ => congrArg₂ (· * ·) (congrArg₂ (· * ·) ?_ ?_) ?_)) ?_
  · show V c main_arg0 (((cfg0.win 0).blk t).view.emb (ix2 p k)) = V c main_arg0 (ix2 ((((cfg0.win 6).blk t).view.emb (ix2 p q)) 0) k)
    refine congrArg (V c main_arg0) (funext fun a => Fin.ext ?_)
    match a with
    | ⟨0, _⟩ => show win0_0.index t (0 : Fin 2) * 4000 + 1 * p.val = win0_6.index t (0 : Fin 2) * 4000 + 1 * p.val; rw [e00]
    | ⟨1, _⟩ => show win0_0.index t (1 : Fin 2) * 128 + 1 * k.val = k.val; rw [e01]; omega
  · show V c main_arg3 (((cfg0.win 3).blk t).view.emb (ix2 k q)) = V c main_arg3 (ix2 k ((((cfg0.win 6).blk t).view.emb (ix2 p q)) 1))
    refine congrArg (V c main_arg3) (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = win0_6.index t (1 : Fin 2) * 128 + 1 * q.val; rw [e31, e61]
  · show V c main_v20 (((cfg0.win 1).blk t).view.emb (ix2 p k)) = V c main_v20 (ix2 ((((cfg0.win 6).blk t).view.emb (ix2 p q)) 0) k)
    refine congrArg (V c main_v20) (funext fun a => Fin.ext ?_)
    match a with
    | ⟨0, _⟩ => show win0_1.index t (0 : Fin 2) * 4000 + 1 * p.val = win0_6.index t (0 : Fin 2) * 4000 + 1 * p.val; rw [e10]
    | ⟨1, _⟩ => show win0_1.index t (1 : Fin 2) * 128 + 1 * k.val = k.val; rw [e11]; omega
  · show V c main_v8 (((cfg0.win 2).blk t).view.emb (ix2 p (0 : Fin 1))) = V c main_v8 (ix2 ((((cfg0.win 6).blk t).view.emb (ix2 p q)) 0) (0 : Fin 1))
    refine congrArg (V c main_v8) (funext fun a => Fin.ext ?_)
    match a with
    | ⟨0, _⟩ => show win0_2.index t (0 : Fin 2) * 4000 + 1 * p.val = win0_6.index t (0 : Fin 2) * 4000 + 1 * p.val; rw [e20]
    | ⟨1, _⟩ => show win0_2.index t (1 : Fin 2) * 1 + 1 * 0 = 0; rw [e21]
  · show V c main_arg4 (((cfg0.win 4).blk t).view.emb (ix2 k q)) = V c main_arg4 (ix2 k ((((cfg0.win 6).blk t).view.emb (ix2 p q)) 1))
    refine congrArg (V c main_arg4) (funext fun a => Fin.ext ?_)
    match a with
    | ⟨0, _⟩ => show win0_4.index t (0 : Fin 2) * 128 + 1 * k.val = k.val; rw [e40]; omega
    | ⟨1, _⟩ => show win0_4.index t (1 : Fin 2) * 128 + 1 * q.val = win0_6.index t (1 : Fin 2) * 128 + 1 * q.val; rw [e41, e61]
  · show V c main_v21 (((cfg0.win 5).blk t).view.emb (ix2 (0 : Fin 1) q)) = V c main_v21 (ix2 (0 : Fin 1) ((((cfg0.win 6).blk t).view.emb (ix2 p q)) 1))
    refine congrArg (V c main_v21) (funext fun a => Fin.ext ?_)
    match a with
    | ⟨0, _⟩ => show win0_5.index t (0 : Fin 2) * 1 + 1 * 0 = 0; rw [e50]
    | ⟨1, _⟩ => show win0_5.index t (1 : Fin 2) * 128 + 1 * q.val = win0_6.index t (1 : Fin 2) * 128 + 1 * q.val; rw [e51, e61]

/-- What point `t` of the second region writes back is block `t` of the combine step of the entry arrays. -/
theorem flushed1_eq (c : Dev nD) (t : Fin cfg1.N) :
    (dat1 (F := Ideal) V c).flushed 6 t = ((cfg1.win 6).blk t).view.read (Elt Ideal)
      (Cert.Sage.combineArr (V c main_v22) (V c main_v33) (V c main_v8) (V c main_arg6) (V c main_arg7) (V c main_v34)) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz, View.ld_unit_zero (S := S128x128) hz, View.ld_unit_zero (S := S1x128) hz]
  obtain ⟨e00, e01, e10, e11, e20, e21, e30, e31, e40, e41, e50, e51, e60, e61⟩ := idx_facts1 t
  funext j
  obtain ⟨p, q, rfl⟩ : ∃ (p : Fin 4000) (q : Fin 128), j = ix2 p q :=
    ⟨⟨(j 0).val, (j 0).isLt⟩, ⟨(j 1).val, (j 1).isLt⟩, funext fun a => by match a with | ⟨0, _⟩ => rfl | ⟨1, _⟩ => rfl⟩
  show k1_pay1 (iblk1 V c 0 t) (iblk1 V c 1 t) (iblk1 V c 2 t) (iblk1 V c 3 t) (iblk1 V c 4 t) (iblk1 V c 5 t) (ix2 p q)
      = Cert.Sage.combine (V c main_v22) (V c main_v33) (V c main_v8) (V c main_arg6) (V c main_arg7) (V c main_v34)
          ((((cfg1.win 6).blk t).view.emb (ix2 p q)) 0) ((((cfg1.win 6).blk t).view.emb (ix2 p q)) 1)
  refine (Payload.pay1_apply (iblk1 V c 0 t) (iblk1 V c 1 t) (iblk1 V c 2 t) (iblk1 V c 3 t) (iblk1 V c 4 t) (iblk1 V c 5 t) p q).trans ?_
  unfold Cert.Sage.combine
  refine congrArg₂ (· + ·) (congrArg₂ (· + ·) (Finset.sum_congr rfl fun k _ => congrArg₂ (· * ·) ?_ ?_)
    (Finset.sum_congr rfl fun k _ => congrArg₂ (· * ·) (congrArg₂ (· * ·) ?_ ?_) ?_)) ?_
  · show V c main_v22 (((cfg1.win 0).blk t).view.emb (ix2 p k)) = V c main_v22 (ix2 ((((cfg1.win 6).blk t).view.emb (ix2 p q)) 0) k)
    refine congrArg (V c main_v22) (funext fun a => Fin.ext ?_)
    match a with
    | ⟨0, _⟩ => show win1_0.index t (0 : Fin 2) * 4000 + 1 * p.val = win1_6.index t (0 : Fin 2) * 4000 + 1 * p.val; rw [e00]
    | ⟨1, _⟩ => show win1_0.index t (1 : Fin 2) * 128 + 1 * k.val = k.val; rw [e01]; omega
  · show V c main_arg6 (((cfg1.win 3).blk t).view.emb (ix2 k q)) = V c main_arg6 (ix2 k ((((cfg1.win 6).blk t).view.emb (ix2 p q)) 1))
    refine congrArg (V c main_arg6) (funext fun a => Fin.ext ?_)
    match a with
    | ⟨0, _⟩ => show win1_3.index t (0 : Fin 2) * 128 + 1 * k.val = k.val; rw [e30]; omega
    | ⟨1, _⟩ => show win1_3.index t (1 : Fin 2) * 128 + 1 * q.val = win1_6.index t (1 : Fin 2) * 128 + 1 * q.val; rw [e31, e61]
  · show V c main_v33 (((cfg1.win 1).blk t).view.emb (ix2 p k)) = V c main_v33 (ix2 ((((cfg1.win 6).blk t).view.emb (ix2 p q)) 0) k)
    refine congrArg (V c main_v33) (funext fun a => Fin.ext ?_)
    match a with
    | ⟨0, _⟩ => show win1_1.index t (0 : Fin 2) * 4000 + 1 * p.val = win1_6.index t (0 : Fin 2) * 4000 + 1 * p.val; rw [e10]
    | ⟨1, _⟩ => show win1_1.index t (1 : Fin 2) * 128 + 1 * k.val = k.val; rw [e11]; omega
  · show V c main_v8 (((cfg1.win 2).blk t).view.emb (ix2 p (0 : Fin 1))) = V c main_v8 (ix2 ((((cfg1.win 6).blk t).view.emb (ix2 p q)) 0) (0 : Fin 1))
    refine congrArg (V c main_v8) (funext fun a => Fin.ext ?_)
    match a with
    | ⟨0, _⟩ => show win1_2.index t (0 : Fin 2) * 4000 + 1 * p.val = win1_6.index t (0 : Fin 2) * 4000 + 1 * p.val; rw [e20]
    | ⟨1, _⟩ => show win1_2.index t (1 : Fin 2) * 1 + 1 * 0 = 0; rw [e21]
  · show V c main_arg7 (((cfg1.win 4).blk t).view.emb (ix2 k q)) = V c main_arg7 (ix2 k ((((cfg1.win 6).blk t).view.emb (ix2 p q)) 1))
    refine congrArg (V c main_arg7) (funext fun a => Fin.ext ?_)
    match a with
    | ⟨0, _⟩ => show win1_4.index t (0 : Fin 2) * 128 + 1 * k.val = k.val; rw [e40]; omega
    | ⟨1, _⟩ => show win1_4.index t (1 : Fin 2) * 128 + 1 * q.val = win1_6.index t (1 : Fin 2) * 128 + 1 * q.val; rw [e41, e61]
  · show V c main_v34 (((cfg1.win 5).blk t).view.emb (ix2 (0 : Fin 1) q)) = V c main_v34 (ix2 (0 : Fin 1) ((((cfg1.win 6).blk t).view.emb (ix2 p q)) 1))
    refine congrArg (V c main_v34) (funext fun a => Fin.ext ?_)
    match a with
    | ⟨0, _⟩ => show win1_5.index t (0 : Fin 2) * 1 + 1 * 0 = 0; rw [e50]
    | ⟨1, _⟩ => show win1_5.index t (1 : Fin 2) * 128 + 1 * q.val = win1_6.index t (1 : Fin 2) * 128 + 1 * q.val; rw [e51, e61]

/-- An index of the output array lies in point `t`'s block iff each coordinate lies in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v22).slice (win0_6.rect t)).set ↔ _
  rw [View.set_slice_whole, Rect.mem_set_unit]
  exact Iff.rfl

/-- Every row r of the output array lies in the block of the point r / 4000: the 25 blocks of 4000 rows tile the array. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨-, -, -, -, -, -, -, -, -, -, -, -, e60, e61⟩ := idx_facts0 t
  refine ⟨t, flush0_6 t, ?_⟩
  rw [mem_blk0]
  intro a
  match a with
  | ⟨0, _⟩ =>
    show win0_6.index t (0 : Fin 2) * 4000 ≤ (i 0).val ∧ (i 0).val < win0_6.index t (0 : Fin 2) * 4000 + 4000
    rw [e60, ht]; omega
  | ⟨1, _⟩ =>
    show win0_6.index t (1 : Fin 2) * 128 ≤ (i 1).val ∧ (i 1).val < win0_6.index t (1 : Fin 2) * 128 + 128
    rw [e61]; omega

/-- The output array after the region: the combine step of the region's six input arrays as the region finds them. -/
theorem final0 (c : Dev nD) : (dat0 (F := Ideal) V c).arrAt 6 cfg0.N
    = Cert.Sage.combineArr (V c main_arg0) (V c main_v20) (V c main_v8) (V c main_arg3) (V c main_arg4) (V c main_v21) :=
  (dat0 V c).arrAt_eq_of_cover 6 _ (fun t _ => flushed0_eq V c t) (cover0)

/-- An index of the output array lies in point `t`'s block iff each coordinate lies in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v35).slice (win1_6.rect t)).set ↔ _
  rw [View.set_slice_whole, Rect.mem_set_unit]
  exact Iff.rfl

/-- Every row r of the output array lies in the block of the point r / 4000: the 25 blocks of 4000 rows tile the array. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show (i 0).val / 4000 < grid1.N; rw [N_1]; omega⟩, rfl⟩
  obtain ⟨-, -, -, -, -, -, -, -, -, -, -, -, e60, e61⟩ := idx_facts1 t
  refine ⟨t, flush1_6 t, ?_⟩
  rw [mem_blk1]
  intro a
  match a with
  | ⟨0, _⟩ =>
    show win1_6.index t (0 : Fin 2) * 4000 ≤ (i 0).val ∧ (i 0).val < win1_6.index t (0 : Fin 2) * 4000 + 4000
    rw [e60, ht]; omega
  | ⟨1, _⟩ =>
    show win1_6.index t (1 : Fin 2) * 128 ≤ (i 1).val ∧ (i 1).val < win1_6.index t (1 : Fin 2) * 128 + 128
    rw [e61]; omega

/-- The output array after the region: the combine step of the region's six input arrays as the region finds them. -/
theorem final1 (c : Dev nD) : (dat1 (F := Ideal) V c).arrAt 6 cfg1.N
    = Cert.Sage.combineArr (V c main_v22) (V c main_v33) (V c main_v8) (V c main_arg6) (V c main_arg7) (V c main_v34) :=
  (dat1 V c).arrAt_eq_of_cover 6 _ (fun t _ => flushed1_eq V c t) (cover1)

end Cert.KernelIdeal.Blocks

end
-- ==== Proof.KernelChain.lean ====
/-
  The idealized kernel program's result as a function of its nine argument arrays.

  The program's buffers are followed from the launch memory through its five segments: the first host stretch
  computes the reciprocal clamped in-degree column, the summed neighbour messages of the input features and the first
  bias row; the first region leaves the combine step of these in its output array; the second host stretch sums the
  neighbour messages of that array and lays out the second bias row; the second region leaves the combine step again;
  the last host stretch scores every edge by the inner product of its endpoint rows and rescales the scores by their
  minimum and maximum. No segment writes an argument, and a region writes only its output array, so every array a
  later segment reads is the value an earlier one left.
-/
import proofs.«173152_j24575802867956_2_alg».proof.Proof.Gen.KernelIdeal.Frame
import proofs.«173152_j24575802867956_2_alg».proof.Proof.KernelBlocks
import proofs.«173152_j24575802867956_2_alg».proof.Proof.LibSageCombine
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-- An edge-index vector with negative entries wrapped by the node count, as a one-column index matrix. -/
def wrapIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The rows of `h` (held in the narrow format) at the edges' sources, widened and summed onto the edges' destination rows. -/
def msg (h : FVec Ideal S100000x128 .bf16) (a1 a2 : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a2)
    (extf (F := Ideal) .f32 (Host.gather gather_S100000x128_S1600000x1_S1600000x128_1_0_n_n_0_1_1128 h (wrapIdx a1)) bitsLt_bf16_f32)

/-- The in-degree of every node: ones summed onto the edges' destinations. -/
def deg (a2 : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 a2)
    (broadcastInDim S1600000 ![] bcast_S_S1600000 (constant (F := Ideal) S_ .f32 0x3F800000#32))

/-- The all-ones vector over the nodes. -/
def ones : FVec Ideal S100000 .f32 :=
  broadcastInDim S100000 ![] bcast_S_S100000 (constant (F := Ideal) S_ .f32 0x3F800000#32)

/-- The reciprocal of the in-degree clamped below by one, as a column. -/
def invDeg (a2 : IVec S1600000 32) : FVec Ideal S100000x1 .f32 :=
  shapeCast S100000x1 (Host.divf (F := Ideal) ones (maximumf (F := Ideal) (deg a2) ones)) shapeCasts_S100000_S100000x1

/-- A bias vector as a one-row matrix. -/
def biasRow (b : FVec Ideal S128 .f32) : FVec Ideal S1x128 .f32 :=
  shapeCast S1x128 b shapeCasts_S128_S1x128

/-- The per-edge score of a feature array held in the narrow format: the inner product of the two endpoint rows. -/
def score (y : FVec Ideal S100000x128 .bf16) (a1 a2 : IVec S1600000 32) : FVec Ideal S1600000 .f32 :=
  Host.reduceAdd (F := Ideal)
    (mulf (F := Ideal) (extf (F := Ideal) .f32 (Host.gather gather_S100000x128_S1600000x1_S1600000x128_1_0_n_n_0_1_1128 y (wrapIdx a1)) bitsLt_bf16_f32)
      (extf (F := Ideal) .f32 (Host.gather gather_S100000x128_S1600000x1_S1600000x128_1_0_n_n_0_1_1128 y (wrapIdx a2)) bitsLt_bf16_f32))
    (constant (F := Ideal) S_ .f32 0x00000000#32) reducesTo_S1600000x128_S1600000_d1 h_S_

/-- The scores rescaled by their minimum and maximum. -/
def normalize (s : FVec Ideal S1600000 .f32) : FVec Ideal S1600000 .f32 :=
  Host.divf (F := Ideal)
    (subf (F := Ideal) s (broadcastInDim S1600000 ![] bcast_S_S1600000
      (Host.reduce (FloatOps.minimumf (F := Ideal) (φ := .f32)) s (constant (F := Ideal) S_ .f32 0x7F800000#32) reducesTo_S1600000_S_d0 h_S_)))
    (broadcastInDim S1600000 ![] bcast_S_S1600000
      (subf (F := Ideal) (Host.reduce (FloatOps.maximumf (F := Ideal) (φ := .f32)) s (constant (F := Ideal) S_ .f32 0xFF800000#32) reducesTo_S1600000_S_d0 h_S_)
        (Host.reduce (FloatOps.minimumf (F := Ideal) (φ := .f32)) s (constant (F := Ideal) S_ .f32 0x7F800000#32) reducesTo_S1600000_S_d0 h_S_)))

/-- One layer as the kernel program computes it: the combine step of the features, their summed messages, the
    reciprocal-degree column, the two weight matrices and the bias row. -/
def layer (h : FVec Ideal S100000x128 .f32) (a1 a2 : IVec S1600000 32) (ws wn : FVec Ideal S128x128 .f32) (b : FVec Ideal S128 .f32) : FVec Ideal S100000x128 .f32 :=
  Cert.Sage.combineArr h (msg h a1 a2) (invDeg a2) ws wn (biasRow b)

/-- The whole kernel program as a function of its nine argument arrays. -/
def whole (a0 : FVec Ideal S100000x128 .f32) (a1 a2 : IVec S1600000 32) (a3 a4 : FVec Ideal S128x128 .f32) (a5 : FVec Ideal S128 .f32) (a6 a7 : FVec Ideal S128x128 .f32) (a8 : FVec Ideal S128 .f32) :
    FVec Ideal S1600000 .f32 :=
  normalize (score (layer (layer a0 a1 a2 a3 a4 a5) a1 a2 a6 a7 a8) a1 a2)

/-! ## The three host stretches, from any contents -/

theorem ops0_v20 (W : Valuation τ sig (Elt Ideal)) :
    StableHlo.after (hostOps0 (F := Ideal)) W (Proc.devRef .tc main_v20)
      = msg (W (Proc.devRef .tc main_arg0)) (W (Proc.devRef .tc main_arg1)) (W (Proc.devRef .tc main_arg2)) := by
  after_results_simp
  rfl

theorem ops0_v8 (W : Valuation τ sig (Elt Ideal)) :
    StableHlo.after (hostOps0 (F := Ideal)) W (Proc.devRef .tc main_v8) = invDeg (W (Proc.devRef .tc main_arg2)) := by
  after_results_simp
  rfl

theorem ops0_v21 (W : Valuation τ sig (Elt Ideal)) :
    StableHlo.after (hostOps0 (F := Ideal)) W (Proc.devRef .tc main_v21) = biasRow (W (Proc.devRef .tc main_arg5)) := by
  after_results_simp
  rfl

theorem ops0_keep_main_arg0 (W : Valuation τ sig (Elt Ideal)) :
    StableHlo.after (hostOps0 (F := Ideal)) W (Proc.devRef .tc main_arg0) = W (Proc.devRef .tc main_arg0) := by
  after_results_simp

theorem ops0_keep_main_arg1 (W : Valuation τ sig (Elt Ideal)) :
    StableHlo.after (hostOps0 (F := Ideal)) W (Proc.devRef .tc main_arg1) = W (Proc.devRef .tc main_arg1) := by
  after_results_simp

theorem ops0_keep_main_arg2 (W : Valuation τ sig (Elt Ideal)) :
    StableHlo.after (hostOps0 (F := Ideal)) W (Proc.devRef .tc main_arg2) = W (Proc.devRef .tc main_arg2) := by
  after_results_simp

theorem ops0_keep_main_arg3 (W : Valuation τ sig (Elt Ideal)) :
    StableHlo.after (hostOps0 (F := Ideal)) W (Proc.devRef .tc main_arg3) = W (Proc.devRef .tc main_arg3) := by
  after_results_simp

theorem ops0_keep_main_arg4 (W : Valuation τ sig (Elt Ideal)) :
    StableHlo.after (hostOps0 (F := Ideal)) W (Proc.devRef .tc main_arg4) = W (Proc.devRef .tc main_arg4) := by
  after_results_simp

theorem ops0_keep_main_arg6 (W : Valuation τ sig (Elt Ideal)) :
    StableHlo.after (hostOps0 (F := Ideal)) W (Proc.devRef .tc main_arg6) = W (Proc.devRef .tc main_arg6) := by
  after_results_simp

theorem ops0_keep_main_arg7 (W : Valuation τ sig (Elt Ideal)) :
    StableHlo.after (hostOps0 (F := Ideal)) W (Proc.devRef .tc main_arg7) = W (Proc.devRef .tc main_arg7) := by
  after_results_simp

theorem ops0_keep_main_arg8 (W : Valuation τ sig (Elt Ideal)) :
    StableHlo.after (hostOps0 (F := Ideal)) W (Proc.devRef .tc main_arg8) = W (Proc.devRef .tc main_arg8) := by
  after_results_simp

theorem ops1_v33 (W : Valuation τ sig (Elt Ideal)) :
    StableHlo.after (hostOps1 (F := Ideal)) W (Proc.devRef .tc main_v33)
      = msg (W (Proc.devRef .tc main_v22)) (W (Proc.devRef .tc main_arg1)) (W (Proc.devRef .tc main_arg2)) := by
  after_results_simp
  rfl

theorem ops1_v34 (W : Valuation τ sig (Elt Ideal)) :
    StableHlo.after (hostOps1 (F := Ideal)) W (Proc.devRef .tc main_v34) = biasRow (W (Proc.devRef .tc main_arg8)) := by
  after_results_simp
  rfl

theorem ops1_keep_main_v22 (W : Valuation τ sig (Elt Ideal)) :
    StableHlo.after (hostOps1 (F := Ideal)) W (Proc.devRef .tc main_v22) = W (Proc.devRef .tc main_v22) := by
  after_results_simp

theorem ops1_keep_main_v8 (W : Valuation τ sig (Elt Ideal)) :
    StableHlo.after (hostOps1 (F := Ideal)) W (Proc.devRef .tc main_v8) = W (Proc.devRef .tc main_v8) := by
  after_results_simp

theorem ops1_keep_main_arg1 (W : Valuation τ sig (Elt Ideal)) :
    StableHlo.after (hostOps1 (F := Ideal)) W (Proc.devRef .tc main_arg1) = W (Proc.devRef .tc main_arg1) := by
  after_results_simp

theorem ops1_keep_main_arg2 (W : Valuation τ sig (Elt Ideal)) :
    StableHlo.after (hostOps1 (F := Ideal)) W (Proc.devRef .tc main_arg2) = W (Proc.devRef .tc main_arg2) := by
  after_results_simp

theorem ops1_keep_main_arg6 (W : Valuation τ sig (Elt Ideal)) :
    StableHlo.after (hostOps1 (F := Ideal)) W (Proc.devRef .tc main_arg6) = W (Proc.devRef .tc main_arg6) := by
  after_results_simp

theorem ops1_keep_main_arg7 (W : Valuation τ sig (Elt Ideal)) :
    StableHlo.after (hostOps1 (F := Ideal)) W (Proc.devRef .tc main_arg7) = W (Proc.devRef .tc main_arg7) := by
  after_results_simp

theorem ops2_v60 (W : Valuation τ sig (Elt Ideal)) :
    StableHlo.after (hostOps2 (F := Ideal)) W (Proc.devRef .tc main_v60)
      = normalize (score (W (Proc.devRef .tc main_v35)) (W (Proc.devRef .tc main_arg1)) (W (Proc.devRef .tc main_arg2))) := by
  after_results_simp
  rfl

/-! ## The fold through the five segments -/

variable (m : (ℓ : Loc nD τ sig) → Buf (Elt Ideal) ℓ) (ρ : Dev nD → PrngReg)

/-- The result buffer's contents at the last boundary: the whole function of the launch contents of the arguments. -/
theorem result_eq (c : Dev nD) :
    W5 m ρ c (Proc.devRef .tc main_v60) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  -- after the first host stretch
  have h1_a0 : W1 m ρ c (Proc.devRef .tc main_arg0) = (m ((c.tc : Thread nD τ).loc main_arg0)) := ops0_keep_main_arg0 (W0 m ρ c)
  have h1_a1 : W1 m ρ c (Proc.devRef .tc main_arg1) = (m ((c.tc : Thread nD τ).loc main_arg1)) := ops0_keep_main_arg1 (W0 m ρ c)
  have h1_a2 : W1 m ρ c (Proc.devRef .tc main_arg2) = (m ((c.tc : Thread nD τ).loc main_arg2)) := ops0_keep_main_arg2 (W0 m ρ c)
  have h1_a3 : W1 m ρ c (Proc.devRef .tc main_arg3) = (m ((c.tc : Thread nD τ).loc main_arg3)) := ops0_keep_main_arg3 (W0 m ρ c)
  have h1_a4 : W1 m ρ c (Proc.devRef .tc main_arg4) = (m ((c.tc : Thread nD τ).loc main_arg4)) := ops0_keep_main_arg4 (W0 m ρ c)
  have h1_a6 : W1 m ρ c (Proc.devRef .tc main_arg6) = (m ((c.tc : Thread nD τ).loc main_arg6)) := ops0_keep_main_arg6 (W0 m ρ c)
  have h1_a7 : W1 m ρ c (Proc.devRef .tc main_arg7) = (m ((c.tc : Thread nD τ).loc main_arg7)) := ops0_keep_main_arg7 (W0 m ρ c)
  have h1_a8 : W1 m ρ c (Proc.devRef .tc main_arg8) = (m ((c.tc : Thread nD τ).loc main_arg8)) := ops0_keep_main_arg8 (W0 m ρ c)
  have h1_v20 : W1 m ρ c (Proc.devRef .tc main_v20) = msg (m ((c.tc : Thread nD τ).loc main_arg0)) (m ((c.tc : Thread nD τ).loc main_arg1)) (m ((c.tc : Thread nD τ).loc main_arg2)) := ops0_v20 (W0 m ρ c)
  have h1_v8 : W1 m ρ c (Proc.devRef .tc main_v8) = invDeg (m ((c.tc : Thread nD τ).loc main_arg2)) := ops0_v8 (W0 m ρ c)
  have h1_v21 : W1 m ρ c (Proc.devRef .tc main_v21) = biasRow (m ((c.tc : Thread nD τ).loc main_arg5)) := ops0_v21 (W0 m ρ c)
  -- after the first region
  have h2_v22 : W2 m ρ c (Proc.devRef .tc main_v22) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (W2_arr m ρ c 6).trans ((Cert.KernelIdeal.Blocks.final0 (V1 m ρ) c).trans (by
      show Cert.Sage.combineArr (W1 m ρ c (Proc.devRef .tc main_arg0)) (W1 m ρ c (Proc.devRef .tc main_v20)) (W1 m ρ c (Proc.devRef .tc main_v8))
        (W1 m ρ c (Proc.devRef .tc main_arg3)) (W1 m ρ c (Proc.devRef .tc main_arg4)) (W1 m ρ c (Proc.devRef .tc main_v21)) = _
      rw [h1_a0, h1_v20, h1_v8, h1_a3, h1_a4, h1_v21]
      rfl))
  have h2_v8 : W2 m ρ c (Proc.devRef .tc main_v8) = invDeg (m ((c.tc : Thread nD τ).loc main_arg2)) :=
    (W2_arr m ρ c 2).trans (((dat0 (V1 m ρ) c).arrAt_in 2 rfl _).trans ((A_eq0 (V1 m ρ) c 2).trans h1_v8))
  have h2_a1 : W2 m ρ c (Proc.devRef .tc main_arg1) = (m ((c.tc : Thread nD τ).loc main_arg1)) := (W2_of_ne m ρ c main_arg1 (by decide)).trans h1_a1
  have h2_a2 : W2 m ρ c (Proc.devRef .tc main_arg2) = (m ((c.tc : Thread nD τ).loc main_arg2)) := (W2_of_ne m ρ c main_arg2 (by decide)).trans h1_a2
  have h2_a6 : W2 m ρ c (Proc.devRef .tc main_arg6) = (m ((c.tc : Thread nD τ).loc main_arg6)) := (W2_of_ne m ρ c main_arg6 (by decide)).trans h1_a6
  have h2_a7 : W2 m ρ c (Proc.devRef .tc main_arg7) = (m ((c.tc : Thread nD τ).loc main_arg7)) := (W2_of_ne m ρ c main_arg7 (by decide)).trans h1_a7
  have h2_a8 : W2 m ρ c (Proc.devRef .tc main_arg8) = (m ((c.tc : Thread nD τ).loc main_arg8)) := (W2_of_ne m ρ c main_arg8 (by decide)).trans h1_a8
  -- after the second host stretch
  have h3_v22 : W3 m ρ c (Proc.devRef .tc main_v22) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (ops1_keep_main_v22 (W2 m ρ c)).trans h2_v22
  have h3_v8 : W3 m ρ c (Proc.devRef .tc main_v8) = invDeg (m ((c.tc : Thread nD τ).loc main_arg2)) := (ops1_keep_main_v8 (W2 m ρ c)).trans h2_v8
  have h3_a1 : W3 m ρ c (Proc.devRef .tc main_arg1) = (m ((c.tc : Thread nD τ).loc main_arg1)) := (ops1_keep_main_arg1 (W2 m ρ c)).trans h2_a1
  have h3_a2 : W3 m ρ c (Proc.devRef .tc main_arg2) = (m ((c.tc : Thread nD τ).loc main_arg2)) := (ops1_keep_main_arg2 (W2 m ρ c)).trans h2_a2
  have h3_a6 : W3 m ρ c (Proc.devRef .tc main_arg6) = (m ((c.tc : Thread nD τ).loc main_arg6)) := (ops1_keep_main_arg6 (W2 m ρ c)).trans h2_a6
  have h3_a7 : W3 m ρ c (Proc.devRef .tc main_arg7) = (m ((c.tc : Thread nD τ).loc main_arg7)) := (ops1_keep_main_arg7 (W2 m ρ c)).trans h2_a7
  have h3_v33 : W3 m ρ c (Proc.devRef .tc main_v33) = msg (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) :=
    (ops1_v33 (W2 m ρ c)).trans (by rw [h2_v22, h2_a1, h2_a2])
  have h3_v34 : W3 m ρ c (Proc.devRef .tc main_v34) = biasRow (m ((c.tc : Thread nD τ).loc main_arg8)) := (ops1_v34 (W2 m ρ c)).trans (by rw [h2_a8])
  -- after the second region
  have h4_v35 : W4 m ρ c (Proc.devRef .tc main_v35)
      = layer (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) :=
    (W4_arr m ρ c 6).trans ((Cert.KernelIdeal.Blocks.final1 (V3 m ρ) c).trans (by
      show Cert.Sage.combineArr (W3 m ρ c (Proc.devRef .tc main_v22)) (W3 m ρ c (Proc.devRef .tc main_v33)) (W3 m ρ c (Proc.devRef .tc main_v8))
        (W3 m ρ c (Proc.devRef .tc main_arg6)) (W3 m ρ c (Proc.devRef .tc main_arg7)) (W3 m ρ c (Proc.devRef .tc main_v34)) = _
      rw [h3_v22, h3_v33, h3_v8, h3_a6, h3_a7, h3_v34]
      rfl))
  have h4_a1 : W4 m ρ c (Proc.devRef .tc main_arg1) = (m ((c.tc : Thread nD τ).loc main_arg1)) := (W4_of_ne m ρ c main_arg1 (by decide)).trans h3_a1
  have h4_a2 : W4 m ρ c (Proc.devRef .tc main_arg2) = (m ((c.tc : Thread nD τ).loc main_arg2)) := (W4_of_ne m ρ c main_arg2 (by decide)).trans h3_a2
  -- after the last host stretch
  exact (ops2_v60 (W4 m ρ c)).trans (by rw [h4_v35, h4_a1, h4_a2]; rfl)

end Cert.KernelIdeal.KValue

end
-- ==== Proof.RefValue.lean ====
/-
  The reference program's result as a composition of three named functions of the argument arrays.

  The reference is a straight line of host operations. Its result is
      normalize (score (layer (layer x …) …)),
  where one `layer` is the mean-aggregating graph layer written with host operations (gather the source rows,
  sum them onto their destination rows, divide by the clamped in-degree, two matrix products, a bias), `score` is the
  per-edge inner product of the two endpoint rows, and `normalize` rescales the scores to the unit interval by their
  minimum and maximum. The run's composed term is literally this composition.
-/
import proofs.«173152_j24575802867956_2_alg».proof.Proof.Gen.ReferenceIdeal.Run
import Idealize.ShloMosaic.PureOps.Ideal.Laws

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

/-- An edge-index vector with negative entries wrapped by the node count, as a one-column index matrix. -/
def wrapIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The rows of `h` at the edges' sources, summed onto the edges' destination rows. -/
def msg (h : FVec Ideal S100000x128 .f32) (a1 a2 : IVec S1600000 32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a2)
    (Host.gather gather_S100000x128_S1600000x1_S1600000x128_1_0_n_n_0_1_1128 h (wrapIdx a1))

/-- The in-degree of every node: ones summed onto the edges' destinations. -/
def deg (a2 : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 a2)
    (broadcastInDim S1600000 ![] bcast_S_S1600000 (constant (F := Ideal) S_ .f32 0x3F800000#32))

/-- The all-ones vector over the nodes. -/
def ones : FVec Ideal S100000 .f32 :=
  broadcastInDim S100000 ![] bcast_S_S100000 (constant (F := Ideal) S_ .f32 0x3F800000#32)

/-- One graph layer in host operations. -/
def layer (h : FVec Ideal S100000x128 .f32) (a1 a2 : IVec S1600000 32)
    (ws wn : FVec Ideal S128x128 .f32) (b : FVec Ideal S128 .f32) :
    FVec Ideal S100000x128 .f32 :=
  addf (F := Ideal) (addf (F := Ideal) (Host.dotGeneral (F := Ideal) dot_S100000x128_S128x128_S100000x128_1_0_0_1_n_n none h ws)
      (Host.dotGeneral (F := Ideal) dot_S100000x128_S128x128_S100000x128_1_0_0_1_n_n none
        (Host.divf (F := Ideal) (msg h a1 a2)
          (broadcastInDim S100000x128 ![0, 1] bcast_S100000x1_S100000x128_0_1
            (broadcastInDim S100000x1 ![0] bcast_S100000_S100000x1_0 (maximumf (F := Ideal) (deg a2) ones)))) wn))
    (broadcastInDim S100000x128 ![0, 1] bcast_S1x128_S100000x128_0_1 (broadcastInDim S1x128 ![1] bcast_S128_S1x128_1 b))

/-- The per-edge score: the inner product of the source row and the destination row. -/
def score (y : FVec Ideal S100000x128 .f32) (a1 a2 : IVec S1600000 32) :
    FVec Ideal S1600000 .f32 :=
  Host.reduceAdd (F := Ideal)
    (mulf (F := Ideal) (Host.gather gather_S100000x128_S1600000x1_S1600000x128_1_0_n_n_0_1_1128 y (wrapIdx a1))
      (Host.gather gather_S100000x128_S1600000x1_S1600000x128_1_0_n_n_0_1_1128 y (wrapIdx a2)))
    (constant (F := Ideal) S_ .f32 0x00000000#32) reducesTo_S1600000x128_S1600000_d1 h_S_

/-- The scores rescaled by their minimum and maximum. -/
def normalize (s : FVec Ideal S1600000 .f32) : FVec Ideal S1600000 .f32 :=
  Host.divf (F := Ideal)
    (subf (F := Ideal) s (broadcastInDim S1600000 ![] bcast_S_S1600000
      (Host.reduce (FloatOps.minimumf (F := Ideal) (φ := .f32)) s (constant (F := Ideal) S_ .f32 0x7F800000#32) reducesTo_S1600000_S_d0 h_S_)))
    (broadcastInDim S1600000 ![] bcast_S_S1600000
      (subf (F := Ideal) (Host.reduce (FloatOps.maximumf (F := Ideal) (φ := .f32)) s (constant (F := Ideal) S_ .f32 0xFF800000#32) reducesTo_S1600000_S_d0 h_S_)
        (Host.reduce (FloatOps.minimumf (F := Ideal) (φ := .f32)) s (constant (F := Ideal) S_ .f32 0x7F800000#32) reducesTo_S1600000_S_d0 h_S_)))

/-- The whole reference as a function of its nine argument arrays. -/
def whole (a0 : FVec Ideal S100000x128 .f32) (a1 a2 : IVec S1600000 32)
    (a3 a4 : FVec Ideal S128x128 .f32) (a5 : FVec Ideal S128 .f32)
    (a6 a7 : FVec Ideal S128x128 .f32) (a8 : FVec Ideal S128 .f32) :
    FVec Ideal S1600000 .f32 :=
  normalize (score (layer (layer a0 a1 a2 a3 a4 a5) a1 a2 a6 a7 a8) a1 a2)

/-- The run's composed term is the composition. -/
theorem res_eq (m : (ℓ : Loc nD τ sig) → Buf (Elt Ideal) ℓ) (c : Dev nD) :
    res_main_v72 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold res_main_v72 whole normalize score layer msg deg ones wrapIdx
  rfl

end Cert.ReferenceIdeal.RefValue

end
-- ==== Proof.Bridge.lean ====
/-
  The two programs compute one function of the argument arrays.

  Layer by layer. The kernel program's layer is the combine step of the features, their summed neighbour messages,
  the reciprocal of the clamped in-degree as a column, the weights and the bias as a row. The reference's layer is
  the host expression  h·ws + (msg / max(deg, 1))·wn + b.  The gathers, the message sums and the in-degree are the
  same operations in both programs (a change of float format is the identity on extended reals, so the narrow
  storage of the kernel's intermediate features changes nothing); the host expression is the combine step because
  dividing by d = max(deg, 1) ≥ 1 is multiplying by 1 / d. The per-edge scores and their rescaling are again the same
  operations applied to equal arrays.
-/
import proofs.«173152_j24575802867956_2_alg».proof.Proof.KernelChain
import proofs.«173152_j24575802867956_2_alg».proof.Proof.RefValue
import proofs.«173152_j24575802867956_2_alg».proof.Proof.LibSageCombine

set_option maxRecDepth 16384

noncomputable section

namespace Cert.Bridge

open Idealize.ShloMosaic Idealize.ShloMosaic.ValueIdx

abbrev SN : Shape := ⟨2, ![100000, 128]⟩
abbrev SE : Shape := ⟨1, ![1600000]⟩
abbrev SW : Shape := ⟨2, ![128, 128]⟩
abbrev SB : Shape := ⟨1, ![128]⟩

/-- The index matrices agree. -/
theorem wrapIdx_eq (a : IVec SE 32) : Cert.KernelIdeal.KValue.wrapIdx a = Cert.ReferenceIdeal.RefValue.wrapIdx a := rfl

/-- The summed messages agree: the same gather and the same sum, the kernel's through the narrow format. -/
theorem msg_eq (h : FVec Ideal SN .f32) (a1 a2 : IVec SE 32) :
    Cert.KernelIdeal.KValue.msg h a1 a2 = Cert.ReferenceIdeal.RefValue.msg h a1 a2 := rfl

/-- The in-degrees agree. -/
theorem deg_eq (a2 : IVec SE 32) : Cert.KernelIdeal.KValue.deg a2 = Cert.ReferenceIdeal.RefValue.deg a2 := rfl

/-- The all-ones vectors agree. -/
theorem ones_eq : Cert.KernelIdeal.KValue.ones = Cert.ReferenceIdeal.RefValue.ones := rfl

/-- Every entry of the all-ones vector is one. -/
theorem ones_apply (r : Fin 100000) : Cert.ReferenceIdeal.RefValue.ones (ix1 r) = 1 :=
  (rfl : Cert.ReferenceIdeal.RefValue.ones (ix1 r) = Ideal.ofBits .f32 0x3F800000#32).trans Cert.Sage.ofBits_one

/-- One layer: the kernel program's combine step is the reference's host expression. -/
theorem layer_eq (h : FVec Ideal SN .f32) (a1 a2 : IVec SE 32) (ws wn : FVec Ideal SW .f32) (b : FVec Ideal SB .f32) :
    Cert.KernelIdeal.KValue.layer h a1 a2 ws wn b = Cert.ReferenceIdeal.RefValue.layer h a1 a2 ws wn b := by
  unfold Cert.ReferenceIdeal.RefValue.layer
  refine Eq.trans ?_ (Cert.Sage.hostLayer_eq Cert.ReferenceIdeal.dot_S100000x128_S128x128_S100000x128_1_0_0_1_n_n rfl rfl rfl rfl rfl rfl
    Cert.ReferenceIdeal.Facts₀.bcast_S100000_S100000x1_0 Cert.ReferenceIdeal.Facts₀.bcast_S100000x1_S100000x128_0_1
    Cert.ReferenceIdeal.Facts₀.bcast_S128_S1x128_1 Cert.ReferenceIdeal.Facts₀.bcast_S1x128_S100000x128_0_1
    Cert.KernelIdeal.Facts₀.shapeCasts_S100000_S100000x1 Cert.KernelIdeal.Facts₀.shapeCasts_S128_S1x128
    h (Cert.ReferenceIdeal.RefValue.msg h a1 a2) (Cert.ReferenceIdeal.RefValue.deg a2) Cert.ReferenceIdeal.RefValue.ones ones_apply ws wn b).symm
  rfl

/-- The per-edge scores agree. -/
theorem score_eq (y : FVec Ideal SN .f32) (a1 a2 : IVec SE 32) :
    Cert.KernelIdeal.KValue.score y a1 a2 = Cert.ReferenceIdeal.RefValue.score y a1 a2 := rfl

/-- The rescalings agree. -/
theorem normalize_eq (s : FVec Ideal SE .f32) :
    Cert.KernelIdeal.KValue.normalize s = Cert.ReferenceIdeal.RefValue.normalize s := rfl

/-- The two programs are one function of the nine argument arrays. -/
theorem whole_eq (a0 : FVec Ideal SN .f32) (a1 a2 : IVec SE 32) (a3 a4 : FVec Ideal SW .f32) (a5 : FVec Ideal SB .f32)
    (a6 a7 : FVec Ideal SW .f32) (a8 : FVec Ideal SB .f32) :
    Cert.KernelIdeal.KValue.whole a0 a1 a2 a3 a4 a5 a6 a7 a8 = Cert.ReferenceIdeal.RefValue.whole a0 a1 a2 a3 a4 a5 a6 a7 a8 := by
  unfold Cert.KernelIdeal.KValue.whole Cert.ReferenceIdeal.RefValue.whole
  rw [layer_eq a0 a1 a2 a3 a4 a5, layer_eq _ a1 a2 a6 a7 a8, score_eq, normalize_eq]

end Cert.Bridge

end
-- ==== Proof.lean ====
/-
  The certificate's five claims.

  The kernel program is a two-layer mean-aggregating graph network followed by an edge score: each layer's dense
  combine step (two matrix products, the message scaling by the reciprocal clamped in-degree, a bias) runs as a
  pipelined region over 25 row blocks, and the gathers, the message sums, the in-degree, the per-edge inner products
  and their rescaling by minimum and maximum are host operations around the two regions. The reference is the same
  network written with host operations only, dividing the summed messages by the clamped in-degree.

  Frames: the two kernel programs' frames are the generated ones; the reference's is its generated run with the
  result dropped. The idealization rewrote nothing, so `preserves` is trivial. Algebraic: the idealized kernel
  program's result is one function `whole` of the nine argument arrays (its run with the result kept, followed
  through the five segments), the reference's result is the composition of its host layers, scores and rescaling, and
  the two are equal because each layer's host expression is the combine step — dividing by d = max(deg, 1) ≥ 1 is
  multiplying by 1 / d on every extended real — while every other operation is shared. No finiteness of the inputs
  is used.
-/
import proofs.«173152_j24575802867956_2_alg».proof.Defs
import proofs.«173152_j24575802867956_2_alg».proof.Proof.Gen.Kernel
import proofs.«173152_j24575802867956_2_alg».proof.Proof.Gen.Kernel.Frame
import proofs.«173152_j24575802867956_2_alg».proof.Proof.Gen.KernelIdeal
import proofs.«173152_j24575802867956_2_alg».proof.Proof.Gen.KernelIdeal.Frame
import proofs.«173152_j24575802867956_2_alg».proof.Proof.Gen.ReferenceIdeal
import proofs.«173152_j24575802867956_2_alg».proof.Proof.Gen.ReferenceIdeal.Run
import proofs.«173152_j24575802867956_2_alg».proof.Proof.Gen.Pre_finite_inputs
import proofs.«173152_j24575802867956_2_alg».proof.Proof.KernelRun
import proofs.«173152_j24575802867956_2_alg».proof.Proof.KernelChain
import proofs.«173152_j24575802867956_2_alg».proof.Proof.RefValue
import proofs.«173152_j24575802867956_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at `whole` of the argument arrays. -/
theorem algebraic : Cert.algebraic_KernelIdeal_ReferenceIdeal := by
  intro m ρ m' ρ' _ hagree
  refine ⟨fun c => Cert.KernelIdeal.KValue.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.whole_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
